-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S128x256 : Shape := ⟨2, ![128, 256]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x256 .f32) (main_arg1 : FVec F S128x256 .f32) (main_arg2 : IVec S1600000 32) (main_arg3 : IVec S1600000 32) (main_arg4 : FVec F S1600000 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x256 : Shape := ⟨2, ![100000, 256]⟩
abbrev S128x256 : Shape := ⟨2, ![128, 256]⟩
abbrev S1600000 : Shape := ⟨1, ![1600000]⟩
abbrev S100000x128 : Shape := ⟨2, ![100000, 128]⟩
abbrev S10000x256 : Shape := ⟨2, ![10000, 256]⟩
abbrev S10000x128 : Shape := ⟨2, ![10000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 22
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S128x256, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .local _ .vmem, ⟨0, _⟩ => ⟨S10000x256, .f32⟩
  | .local _ .vmem, ⟨1, _⟩ => ⟨S10000x256, .f32⟩
  | .local _ .vmem, ⟨2, _⟩ => ⟨S128x256, .f32⟩
  | .local _ .vmem, ⟨3, _⟩ => ⟨S10000x128, .f32⟩
  | .local _ .vmem, ⟨4, _⟩ => ⟨S10000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S10000x128_S10000x128_0_0 : ∀ a, (![0, 0] : Fin 2 → Nat) a + S10000x128.size a ≤ S10000x128.size a
  h_S10000x128 : 0 < S10000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S10000x256_S128x256_S10000x128_1_1_0_0_n_n_wf : DotDims.WF S10000x256 S128x256 S10000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)

variable [Facts₀]

def dot_S10000x256_S128x256_S10000x128_1_1_0_0_n_n : DotDims S10000x256 S128x256 S10000x128 where
  lhsContracting := [1]
  rhsContracting := [1]
  lhsNonContracting := [0]
  rhsNonContracting := [0]
  lhsBatch := []
  rhsBatch := []
  wf := dot_S10000x256_S128x256_S10000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S128x256 : Shape := ⟨2, ![128, 256]⟩
abbrev S1600000 : Shape := ⟨1, ![1600000]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩

abbrev nBuf : Space → Nat
  | .hbm => 22
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S128x256, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  dot_S100000x256_S128x256_S100000x128_1_1_0_0_n_n_wf : DotDims.WF S100000x256 S128x256 S100000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S128x256_S100000x128_1_1_0_0_n_n : DotDims S100000x256 S128x256 S100000x128 where
  lhsContracting := [1]
  rhsContracting := [1]
  lhsNonContracting := [0]
  rhsNonContracting := [0]
  lhsBatch := []
  rhsBatch := []
  wf := dot_S100000x256_S128x256_S100000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibTransposedMatmul.lean ====
/-
  A matrix product against a transposed right operand, read at an entry.

  For the dimension numbers "contract the left operand's second axis with the right operand's SECOND axis" an `[M, K]` by
  `[N, K]` product, accumulated into a zero array, has at row `p` and column `c` the entry `∑ k, W p k · X c k` over the
  extended reals (the product `W · Xᵀ`): the contraction position is its one coordinate `k`, the left operand is read at
  `(p, k)` and the right one at `(c, k)`. The same reading holds of a host `dot_general` with those dimension numbers.
-/
import Idealize.ShloMosaic.PureOps.Ideal.Laws
import Idealize.ShloMosaic.Lib.ValueIdx

noncomputable section

namespace Cert.LibTransposedMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The left operand's column coordinate is the contraction position. -/
theorem lhs_col (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row coordinate is the result's column. -/
theorem rhs_row (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The right operand's column coordinate is the contraction position. -/
theorem rhs_col (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The sum over the contraction positions, re-indexed by the one coordinate. -/
theorem sum_contr {φ₁ φ₂ : FTy} (W : FVec Ideal ⟨2, ![M, K]⟩ φ₁) (X : FVec Ideal ⟨2, ![N, K]⟩ φ₂) (p : Fin M) (c : Fin N) :
    (∑ q : (DotDims.transposedRhs M K N).contr.Idx,
        W ((DotDims.transposedRhs M K N).lhsIdx (ix2 p c) q) * X ((DotDims.transposedRhs M K N).rhsIdx (ix2 p c) q))
      = ∑ k : Fin K, W (ix2 p k) * X (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => exact rhs_row M K N _ _
      | ⟨1, _⟩ => exact (rhs_col M K N _ _).trans hk)
  rw [el, er]

/-- A kernel's product against a transposed right operand into a zero accumulator, at an entry. -/
theorem matmul_zero_apply {φ₁ φ₂ : FTy} (prec : Option ContractPrecision) (W : FVec Ideal ⟨2, ![M, K]⟩ φ₁)
    (X : FVec Ideal ⟨2, ![N, K]⟩ φ₂) (p : Fin M) (c : Fin N) :
    matmul (DotDims.transposedRhs M K N) prec W X (constant (F := Ideal) ⟨2, ![M, N]⟩ .f32 0x00000000#32) (ix2 p c)
      = ∑ k : Fin K, W (ix2 p k) * X (ix2 c k) := by
  simp only [matmul]
  rw [Ideal.matmul_constant_zero_apply]
  exact sum_contr M K N W X p c

/-- A host product against a transposed right operand, at an entry. -/
theorem dotGeneral_apply {φ₁ φ₂ : FTy} (prec : Option ContractPrecision) (W : FVec Ideal ⟨2, ![M, K]⟩ φ₁)
    (X : FVec Ideal ⟨2, ![N, K]⟩ φ₂) (p : Fin M) (c : Fin N) :
    Host.dotGeneral (DotDims.transposedRhs M K N) prec W X (ix2 p c) = ∑ k : Fin K, W (ix2 p k) * X (ix2 c k) := by
  simp only [Host.dotGeneral]
  rw [Ideal.dotGeneral_apply]
  exact sum_contr M K N W X p c

end Cert.LibTransposedMatmul

end
-- ==== Proof.Projection.lean ====
/-
  The dense projection of a graph convolution, as ONE function of its two argument arrays.

  For node features `X : [100000, 256]` and a weight matrix `W : [128, 256]` (stored output-major), the projected features
  are `H = X · Wᵀ`: entry `(n, o)` is `∑ k, X (n, k) · W (o, k)` on the extended reals. Both programs compute exactly this
  sum: the host's `dot_general` contracting both operands' second axes does so for the whole array at once, and a
  matrix unit's product of a block of 10000 rows of `X` against all of `W`, accumulated into zero, does so for that block's
  rows (the rounding of the operands to a narrower format is the identity on the extended reals). A sum of products over
  `k` needs no finiteness: nothing is distributed or cancelled.
-/
import proofs.«117383_j8297876816010_1_alg».proof.Proof.LibTransposedMatmul

noncomputable section

namespace Cert.Projection

open Idealize.ShloMosaic Idealize.ShloMosaic.ValueIdx
open scoped BigOperators

/-- `H = X · Wᵀ`, entry by entry: row `n` of `X` against row `o` of `W`. -/
def proj (X : FVec Ideal ⟨2, ![100000, 256]⟩ .f32) (W : FVec Ideal ⟨2, ![128, 256]⟩ .f32) :
    FVec Ideal ⟨2, ![100000, 128]⟩ .f32 :=
  fun i => ∑ k : Fin 256, X (ix2 (i 0) k) * W (ix2 (i 1) k)

/-- The projection at explicit coordinates. -/
theorem proj_apply (X : FVec Ideal ⟨2, ![100000, 256]⟩ .f32) (W : FVec Ideal ⟨2, ![128, 256]⟩ .f32)
    (n : Fin 100000) (o : Fin 128) : proj X W (ix2 n o) = ∑ k : Fin 256, X (ix2 n k) * W (ix2 o k) := rfl

/-- The host's whole-array product, contracting both second axes, is the projection. -/
theorem dotGeneral_eq_proj (prec : Option ContractPrecision) (X : FVec Ideal ⟨2, ![100000, 256]⟩ .f32)
    (W : FVec Ideal ⟨2, ![128, 256]⟩ .f32) :
    Host.dotGeneral (DotDims.transposedRhs 100000 256 128) prec X W = proj X W := by
  funext i
  obtain ⟨n, o, rfl⟩ : ∃ (n : Fin 100000) (o : Fin 128), i = ix2 n o := ⟨i 0, i 1, eq_ix2 i⟩
  exact Cert.LibTransposedMatmul.dotGeneral_apply 100000 256 128 prec X W n o

/-- A block of 10000 rows of `X` against all of `W`, both rounded to a narrower format first (the identity here) and
    accumulated into zero: entry `(p, o)` of the block's product is row `p` of the block against row `o` of `W`. -/
theorem block_apply (prec : Option ContractPrecision) (x : FVec Ideal ⟨2, ![10000, 256]⟩ .f32)
    (w : FVec Ideal ⟨2, ![128, 256]⟩ .f32) (h : FTy.bits .bf16 < FTy.bits .f32) (p : Fin 10000) (o : Fin 128) :
    matmul (DotDims.transposedRhs 10000 256 128) prec (truncf .bf16 x h) (truncf .bf16 w h)
        (constant (F := Ideal) ⟨2, ![10000, 128]⟩ .f32 0x00000000#32) (ix2 p o)
      = ∑ k : Fin 256, x (ix2 p k) * w (ix2 o k) :=
  Cert.LibTransposedMatmul.matmul_zero_apply 10000 256 128 prec (truncf .bf16 x h) (truncf .bf16 w h) p o

end Cert.Projection

end
-- ==== Proof.Aggregate.lean ====
/-
  The sparse aggregation that follows the projection, as one function of the projected features.

  Given projected features `H : [100000, 128]` and an edge list (`rows`, `cols`, `vals`, 1600000 edges), every edge `e`
  sends the message `vals e · H (cols e, ·)` to node `rows e`, and a node's result is the sum of the messages sent to it
  (a negative column index is first wrapped by adding 100000). Both programs run these very host operations, in this order
  and with these constants, on whatever `H` they computed; so they are kept here as ONE closed term, never opened: two
  results are equal as soon as the two `H` are.
-/
import proofs.«117383_j8297876816010_1_alg».proof.Proof.Gen.KernelIdeal

noncomputable section

namespace Cert.Aggregate

open Cert.KernelIdeal Cert.KernelIdeal.Facts₀ Idealize.ShloMosaic

variable {F : FTy → Type} [FloatOps F]

/-- Gather the rows of `H` the edges' columns name, scale each by its edge's value, and add every scaled row into the
    row of a zero array its edge's row names. -/
def aggregate (H : (⟨S100000x128, .f32⟩ : BufTy).Contents (Elt F)) (rows cols : (⟨S1600000, .i32⟩ : BufTy).Contents (Elt F))
    (vals : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rows)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 H
        (broadcastInDim S1600000x1 ![0] bcast_S1600000_S1600000x1_0
          (select (cmpi .slt cols (broadcastInDim S1600000 ![] bcast_S_S1600000 (constantI S_ 32 0#32)))
            (addi cols (broadcastInDim S1600000 ![] bcast_S_S1600000 (constantI S_ 32 100000#32))) cols))))

end Cert.Aggregate

end
-- ==== Proof.KernelValue.lean ====
/-
  What the kernel program leaves in its result array, on the extended reals.

  The program's one region walks the node features `X : [100000, 256]` in 10 blocks of 10000 rows; at block `t` it multiplies
  rows `10000 t … 10000 t + 9999` of `X` against all 128 rows of the weight matrix `W : [128, 256]` and writes the
  `[10000, 128]` product back as rows `10000 t …` of the projected features. Entry `(p, o)` of a block's product is row `p`
  of that block of `X` against row `o` of `W`, that is, entry `(10000 t + p, o)` of `X · Wᵀ`: every block written back is a
  block of the ONE array `proj X W`, the 10 blocks tile the rows, so after the region the projected features are `proj X W`.
  The host operations after the region then aggregate along the edges; they are the closed term `aggregate` of the projected
  features and the three edge arrays, which the region leaves as launched.
-/
import proofs.«117383_j8297876816010_1_alg».proof.Proof.Gen.KernelIdeal.Frame
import proofs.«117383_j8297876816010_1_alg».proof.Proof.Projection
import proofs.«117383_j8297876816010_1_alg».proof.Proof.Aggregate
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.Linear

open Idealize.ShloMosaic Idealize.ShloMosaic.TcCoe Idealize.SL.Sem Idealize.ShloMosaic.ValueIdx
open Idealize.ShloMosaic.Pipeline (Dat)
open Cert.KernelIdeal Cert.KernelIdeal.Gen Cert.Projection Cert.Aggregate
open scoped BigOperators

variable (m : (ℓ : Loc nD τ sig) → Buf (Elt Ideal) ℓ) (ρ : Dev nD → PrngReg)

/-! ## One block's product -/

theorem zero_offsets : (![0, 0] : Fin 2 → Nat) = fun _ => 0 := funext fun a => by fin_cases a <;> rfl

/-- The body's one stored value at an entry: row `p` of the loaded block of `X` against row `o` of the loaded `W`. -/
theorem payload_apply (x : Vec Ideal S10000x256 .f32) (w : Vec Ideal S128x256 .f32) (p : Fin 10000) (o : Fin 128) :
    k0_pay1 (F := Ideal) x w (ix2 p o) = ∑ k : Fin 256, x (ix2 p k) * w (ix2 o k) := by
  unfold k0_pay1
  exact Cert.Projection.block_apply none x w _ p o

/-- If the loaded block of `X` holds, in its row `j 0`, row `i 0` of `X`, and the loaded `W` holds in its row `j 1` row `i 1` of `W`,
    then the stored value at `j` is entry `i` of `X · Wᵀ`. -/
theorem payload_is_proj (X : Vec Ideal S100000x256 .f32) (W : Vec Ideal S128x256 .f32)
    (x : Vec Ideal S10000x256 .f32) (w : Vec Ideal S128x256 .f32) (j : S10000x128.Idx) (i : S100000x128.Idx)
    (hx : ∀ k : Fin 256, x (ix2 (j 0) k) = X (ix2 (i 0) k)) (hw : ∀ k : Fin 256, w (ix2 (j 1) k) = W (ix2 (i 1) k)) :
    k0_pay1 (F := Ideal) x w j = proj X W i := by
  refine (congrArg (k0_pay1 (F := Ideal) x w) (eq_ix2 (n0 := 10000) (n1 := 128) j)).trans ?_
  refine (payload_apply x w (j 0) (j 1)).trans ?_
  exact Finset.sum_congr rfl fun k _ => by rw [hx k, hw k]

/-! ## The blocks and the array -/

/-- The printed index maps over the 10 points: the block of `X` moves with the output's block along the rows and sits at
    column block 0, `W`'s block never moves, and the output's block is at column block 0 and one of the 10 row blocks. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the 10 row blocks is some point's. -/
theorem index_onto : ∀ b : Fin 10, ∃ t : Fin cfg0.N, win0_2.index t = ![b.val, 0] :=
  (by decide +kernel : ∀ b : Fin 10, ∃ t : Fin grid0.N, win0_2.index t = ![b.val, 0])

/-- What point `t` writes back is block `t` of `X · Wᵀ` of the argument arrays as the region finds them. -/
theorem flushed_eq (c : Dev nD) (t : Fin cfg0.N) :
    (dats m 0 c).flushed 2 t = ((cfg0.win 2).blk t).view.read (Elt Ideal) (proj (V m c main_arg0) (V m c main_arg1)) := by
  show (cfg0.win 2).cut (grid0.coords t) ((dats m 0 c).after 2 t) = _
  rw [after0_2]
  unfold out0_2
  rw [View.canon_unit_zero zero_offsets]
  simp only [View.ld_unit_zero (S := S10000x256) zero_offsets, View.ld_unit_zero (S := S128x256) zero_offsets]
  obtain ⟨e0, e1, e2, e3, e4, e5⟩ := index_facts t
  funext j
  show k0_pay1 (F := Ideal) (iblk m c 0 t) (iblk m c 1 t) j = proj (V m c main_arg0) (V m c main_arg1) (((cfg0.win 2).blk t).view.emb j)
  refine payload_is_proj (V m c main_arg0) (V m c main_arg1) (iblk m c 0 t) (iblk m c 1 t) j (((cfg0.win 2).blk t).view.emb j) (fun k => ?_) (fun k => ?_)
  · show V m c main_arg0 (((cfg0.win 0).blk t).view.emb (ix2 (j 0) k)) = V m c main_arg0 (ix2 ((((cfg0.win 2).blk t).view.emb j) 0) k)
    refine congrArg (V m c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 256 + 1 * k.val = k.val; omega
  · show V m c main_arg1 (((cfg0.win 1).blk t).view.emb (ix2 (j 1) k)) = V m c main_arg1 (ix2 ((((cfg0.win 2).blk t).view.emb j) 1) k)
    refine congrArg (V m c main_arg1) (funext fun a => Fin.ext ?_)
    match a with
    | ⟨0, _⟩ => show win0_1.index t (0 : Fin 2) * 128 + 1 * (j 1).val = win0_2.index t (1 : Fin 2) * 128 + 1 * (j 1).val; omega
    | ⟨1, _⟩ => show win0_1.index t (1 : Fin 2) * 256 + 1 * k.val = k.val; omega

/-- An index of the projected features is in point `t`'s block iff each coordinate is in the block's range on its axis. -/
theorem mem_block (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0).slice (win0_2.rect t)).set ↔ _
  rw [View.set_slice_whole, Rect.mem_set_unit]
  exact Iff.rfl

/-- Row `r` lies in row block `r / 10000`: every index is in some point's block, and every point writes back. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := index_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The projected features after the region: `X · Wᵀ` of the launched arrays. -/
theorem projected (c : Dev nD) :
    (dats m 0 c).arrAt 2 cfg0.N = proj (m ((c : Thread nD τ).loc main_arg0)) (m ((c : Thread nD τ).loc main_arg1)) :=
  (dats m 0 c).arrAt_eq_of_cover 2 (proj (V m c main_arg0) (V m c main_arg1)) (fun t _ => flushed_eq m c t) covered

/-! ## The host operations after the region -/

/-- After the region the projected features' array holds `X · Wᵀ`. -/
theorem tail_features (c : Dev nD) :
    Pipeline.withArrays spec0 c (V0 m c) (fun w => (dats m 0 c).arrAt w cfg0.N) (Proc.devRef .tc main_v0)
      = proj (m ((c : Thread nD τ).loc main_arg0)) (m ((c : Thread nD τ).loc main_arg1)) :=
  (Pipeline.withArrays_arr spec0 launch0.win.arr_inj c (V0 m c) (fun w => (dats m 0 c).arrAt w cfg0.N) 2).trans (projected m c)

/-- The edge arrays are no window's array: the region leaves them as launched. -/
theorem tail_rows (c : Dev nD) :
    Pipeline.withArrays spec0 c (V0 m c) (fun w => (dats m 0 c).arrAt w cfg0.N) (Proc.devRef .tc main_arg2)
      = m ((c : Thread nD τ).loc main_arg2) :=
  (Pipeline.withArrays_of_ne spec0 c (V0 m c) _ main_arg2 (by decide)).trans (V_main_arg2 m c)
theorem tail_cols (c : Dev nD) :
    Pipeline.withArrays spec0 c (V0 m c) (fun w => (dats m 0 c).arrAt w cfg0.N) (Proc.devRef .tc main_arg3)
      = m ((c : Thread nD τ).loc main_arg3) :=
  (Pipeline.withArrays_of_ne spec0 c (V0 m c) _ main_arg3 (by decide)).trans (V_main_arg3 m c)
theorem tail_vals (c : Dev nD) :
    Pipeline.withArrays spec0 c (V0 m c) (fun w => (dats m 0 c).arrAt w cfg0.N) (Proc.devRef .tc main_arg4)
      = m ((c : Thread nD τ).loc main_arg4) :=
  (Pipeline.withArrays_of_ne spec0 c (V0 m c) _ main_arg4 (by decide)).trans (V_main_arg4 m c)

/-- The program's result: the aggregation along the edges of `X · Wᵀ`. -/
theorem result_eq (c : Dev nD) :
    Pipeline.afterTail₀ cfgs (dats m) 0 (V0 m) [hostOps1] c main_v13
      = aggregate (proj (m ((c : Thread nD τ).loc main_arg0)) (m ((c : Thread nD τ).loc main_arg1)))
          (m ((c : Thread nD τ).loc main_arg2)) (m ((c : Thread nD τ).loc main_arg3)) (m ((c : Thread nD τ).loc main_arg4)) := by
  unfold Pipeline.afterTail₀
  show StableHlo.after hostOps1 _ (Proc.devRef .tc main_v13) = _
  after_results
  rw [tail_features m c, tail_rows m c, tail_cols m c, tail_vals m c]
  rfl

/-! ## The run, read -/

/-- Every weakly fair execution of the kernel program terminates with its result array at the aggregation along the edges
    of `X · Wᵀ` of the launched arrays, and its five argument arrays as launched. -/
theorem run : θ_run defs (onTc (τ := τ) (main (F := Ideal))) ⟨m, fun _ => 0, ρ⟩ fun r => ∀ c : Dev nD,
      r.2.mem ((c.tc : Thread nD τ).loc main_v13)
        = aggregate (proj (m ((c.tc : Thread nD τ).loc main_arg0)) (m ((c.tc : Thread nD τ).loc main_arg1)))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Linear

end
-- ==== Proof.RefValue.lean ====
/-
  What the reference program leaves in its result array, on the extended reals.

  The reference multiplies the node features by the transposed weight matrix in one host product and then runs the same
  aggregation along the edges as the kernel program, operation for operation and constant for constant. Its result is
  therefore `aggregate` of its product, and its product is `X · Wᵀ` entry by entry.
-/
import proofs.«117383_j8297876816010_1_alg».proof.Proof.Gen.ReferenceIdeal.Run
import proofs.«117383_j8297876816010_1_alg».proof.Proof.Projection
import proofs.«117383_j8297876816010_1_alg».proof.Proof.Aggregate

noncomputable section

namespace Cert.ReferenceIdeal.Linear

open Idealize.ShloMosaic Idealize.ShloMosaic.TcCoe Idealize.SL.Sem
open Cert.ReferenceIdeal Cert.ReferenceIdeal.Facts₀ Cert.Projection Cert.Aggregate

/-- The reference's product contracts both operands' second axes. -/
theorem dot_is_transposed :
    dot_S100000x256_S128x256_S100000x128_1_1_0_0_n_n = DotDims.transposedRhs 100000 256 128 := rfl

/-- The reference's result term, read on the extended reals: the aggregation along the edges of `X · Wᵀ`. -/
theorem result_eq (X : (⟨S100000x256, .f32⟩ : BufTy).Contents (Elt Ideal)) (W : (⟨S128x256, .f32⟩ : BufTy).Contents (Elt Ideal))
    (rows cols : (⟨S1600000, .i32⟩ : BufTy).Contents (Elt Ideal)) (vals : (⟨S1600000, .f32⟩ : BufTy).Contents (Elt Ideal)) :
    Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 rows)
        (mulf (broadcastInDim S1600000x128 ![0, 1] bcast_S1600000x1_S1600000x128_0_1 (broadcastInDim S1600000x1 ![0] bcast_S1600000_S1600000x1_0 vals))
          (Host.gather gather_S100000x128_S1600000x1_S1600000x128_1_0_n_n_0_1_1128
            (Host.dotGeneral (φ₁ := .f32) (φ₂ := .f32) dot_S100000x256_S128x256_S100000x128_1_1_0_0_n_n none X W)
            (broadcastInDim S1600000x1 ![0] bcast_S1600000_S1600000x1_0
              (select (cmpi .slt cols (broadcastInDim S1600000 ![] bcast_S_S1600000 (constantI S_ 32 0#32)))
                (addi cols (broadcastInDim S1600000 ![] bcast_S_S1600000 (constantI S_ 32 100000#32))) cols))))
      = aggregate (proj X W) rows cols vals := by
  show aggregate (Host.dotGeneral (φ₁ := .f32) (φ₂ := .f32) dot_S100000x256_S128x256_S100000x128_1_1_0_0_n_n none X W) rows cols vals = _
  rw [dot_is_transposed, dotGeneral_eq_proj]

end Cert.ReferenceIdeal.Linear

end
-- ==== Proof.lean ====
/-
  A graph convolution: project the node features, then aggregate along the edges.

  Inputs: node features `X : [100000, 256]`, a weight matrix `W : [128, 256]`, and 1600000 edges given as three arrays
  (`rows`, `cols`, `vals`). Both programs first form the projected features `H = X · Wᵀ` and then, with the same host
  operations, send along every edge `e` the message `vals e · H (cols e, ·)` to node `rows e` and add up each node's messages.

  They differ only in how `H` is formed. The kernel program forms it in a region of 10 points, one block of 10000 rows of `X`
  at a time, each block multiplied against all of `W` on the matrix unit after both are rounded to a narrower format; the
  reference forms it by one host product. On the extended reals the rounding is the identity and each entry of either product
  is the same finite sum `∑ k, X (n, k) · W (o, k)` — no term is distributed, cancelled or reordered across an infinity, so no
  finiteness of the inputs is used. The 10 blocks tile the rows, so the kernel's array of projected features is that function
  of `X` and `W` (Proof/KernelValue.lean); the reference's product is the same function (Proof/RefValue.lean, over
  Proof/Projection.lean); and the aggregation, one closed term of `H` and the edge arrays (Proof/Aggregate.lean), is applied
  to equal arguments on both sides.

  The three frames are the generated ones (the reference's is its generated run with the result dropped); the idealization
  rewrote no operation, so there is nothing to preserve.
-/
import proofs.«117383_j8297876816010_1_alg».proof.Defs
import proofs.«117383_j8297876816010_1_alg».proof.Proof.Gen.Kernel
import proofs.«117383_j8297876816010_1_alg».proof.Proof.Gen.Kernel.Skeleton
import proofs.«117383_j8297876816010_1_alg».proof.Proof.Gen.Kernel.Launch
import proofs.«117383_j8297876816010_1_alg».proof.Proof.Gen.Kernel.Points
import proofs.«117383_j8297876816010_1_alg».proof.Proof.Gen.Kernel.Frame
import proofs.«117383_j8297876816010_1_alg».proof.Proof.Gen.KernelIdeal
import proofs.«117383_j8297876816010_1_alg».proof.Proof.Gen.KernelIdeal.Skeleton
import proofs.«117383_j8297876816010_1_alg».proof.Proof.Gen.KernelIdeal.Launch
import proofs.«117383_j8297876816010_1_alg».proof.Proof.Gen.KernelIdeal.Points
import proofs.«117383_j8297876816010_1_alg».proof.Proof.Gen.KernelIdeal.Frame
import proofs.«117383_j8297876816010_1_alg».proof.Proof.Gen.ReferenceIdeal
import proofs.«117383_j8297876816010_1_alg».proof.Proof.Gen.ReferenceIdeal.Run
import proofs.«117383_j8297876816010_1_alg».proof.Proof.Gen.Pre_finite_inputs
import proofs.«117383_j8297876816010_1_alg».proof.Proof.KernelValue
import proofs.«117383_j8297876816010_1_alg».proof.Proof.RefValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments unchanged: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the aggregation along the edges of `X · Wᵀ`:
    the kernel's blocks tile that product, the reference's host product is it entry by entry, and the aggregation is the
    same closed term on both sides. -/
theorem algebraic : Cert.algebraic_KernelIdeal_ReferenceIdeal := by
  intro m ρ m' ρ' _ hagree
  refine ⟨_, Cert.KernelIdeal.Linear.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.Linear.result_eq _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
